-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x128 : Shape := ⟨2, ![1024, 128]⟩
abbrev S128x1024 : Shape := ⟨2, ![128, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128x1024 : S_.BroadcastsInDim S128x1024 (![] : Fin 0 → Fin S128x1024.rank)
  reducesTo_S128x1024_S_d0_1 : S128x1024.ReducesTo [0, 1] S_

variable [Facts]

def fn_part1 {F : FTy → Type} [FloatOps F] (main_arg4 : FVec F S128x1024 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S128x1024 .f32 := Host.absf main_arg4
  let main_cst_6 : FVec F S_ .f32 := constant S_ .f32 0x7F800000#32
  let main_v20 : FVec F S128x1024 .f32 := broadcastInDim S128x1024 ![] bcast_S_S128x1024 main_cst_6
  let main_v21 : IVec S128x1024 1 := cmpf .olt main_v19 main_v20
  let main_c_7 : IVec S_ 1 := constantI S_ 1 1#1
  let main_v22 : IVec S_ 1 := (fun x v => Host.reduce IntOp.andi x v reducesTo_S128x1024_S_d0_1 h_S_) main_v21 main_c_7
  let main_v23 : IVec S_ 1 := andi main_v18 main_v22
  main_v23

def fn {F : FTy → Type} [FloatOps F] (main_arg0 : FVec F S32768x1024 .f32) (main_arg1 : FVec F S32768x1024 .f32) (main_arg2 : FVec F S32768x1024 .f32) (main_arg3 : FVec F S1024x128 .f32) (main_arg4 : FVec F S128x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S32768x1024 .f32 := Host.absf main_arg2
  let main_cst_2 : FVec F S_ .f32 := constant S_ .f32 0x7F800000#32
  let main_v10 : FVec F S32768x1024 .f32 := broadcastInDim S32768x1024 ![] bcast_S_S32768x1024 main_cst_2
  let main_v11 : IVec S32768x1024 1 := cmpf .olt main_v9 main_v10
  let main_c_3 : IVec S_ 1 := constantI S_ 1 1#1
  let main_v12 : IVec S_ 1 := (fun x v => Host.reduce IntOp.andi x v reducesTo_S32768x1024_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_v13 main_v16
-- ==== Kernel.lean ====
abbrev S32768x1024 : Shape := ⟨2, ![32768, 1024]⟩
abbrev S1024x128 : Shape := ⟨2, ![1024, 128]⟩
abbrev S128x1024 : Shape := ⟨2, ![128, 1024]⟩
abbrev S512x1024 : Shape := ⟨2, ![512, 1024]⟩
abbrev S512x128 : Shape := ⟨2, ![512, 128]⟩

abbrev nBuf : Space → Nat
  | .hbm => 9
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S1024x128, .f32⟩
  | .hbm, ⟨4, _⟩ => ⟨S128x1024, .f32⟩
  | .hbm, ⟨5, _⟩ => ⟨S1024x128, .bf16⟩
  | .hbm, ⟨6, _⟩ => ⟨S128x1024, .bf16⟩
  | .hbm, ⟨7, _⟩ => ⟨S32768x1024, .f32⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x128, .bf16⟩
  | .local _ .vmem, ⟨7, _⟩ => ⟨S128x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  dot_S512x1024_S1024x128_S512x128_1_0_0_1_n_n_wf : DotDims.WF S512x1024 S1024x128 S512x128 [1] [0] [0] [1] [] []
  dot_S512x128_S128x1024_S512x1024_1_0_0_1_n_n_wf : DotDims.WF S512x128 S128x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S32768x1024.size a
  hwx0_2 : ∀ i : grid0.Coords, EltTy.bits .f32 = 32 ∨ (Rect.block (s := S32768x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S128x1024.size a
  hwx0_4 : ∀ i : grid0.Coords, EltTy.bits .bf16 = 32 ∨ (Rect.block (s := S128x1024) S128x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S32768x1024.size a
  hwx0_5 : ∀ i : grid0.Coords, EltTy.bits .f32 = 32 ∨ (Rect.block (s := S32768x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S32768x1024.size a
  hwx0_6 : ∀ i : grid0.Coords, EltTy.bits .f32 = 32 ∨ (Rect.block (s := S32768x1024) S512x1024.size (cc0_transform_6 i) (hinb0_6 i)).WholeWords (EltTy.packing .f32)

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x128 : Shape := ⟨2, ![1024, 128]⟩
abbrev S128x1024 : Shape := ⟨2, ![128, 1024]⟩
abbrev S32768x128 : Shape := ⟨2, ![32768, 128]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S1024x128, .f32⟩
  | .hbm, ⟨4, _⟩ => ⟨S128x1024, .f32⟩
  | .hbm, ⟨5, _⟩ => ⟨S32768x128, .f32⟩
  | .hbm, ⟨6, _⟩ => ⟨S32768x128, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x128, .f32⟩
  | .hbm, ⟨20, _⟩ => ⟨S32768x128, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S_S32768x1024 : S_.BroadcastsInDim S32768x1024 (![] : Fin 0 → Fin S32768x1024.rank)
  dot_S32768x1024_S1024x128_S32768x128_1_0_0_1_n_n_wf : DotDims.WF S32768x1024 S1024x128 S32768x128 [1] [0] [0] [1] [] []
  dot_S32768x128_S128x1024_S32768x1024_1_0_0_1_n_n_wf : DotDims.WF S32768x128 S128x1024 S32768x1024 [1] [0] [0] [1] [] []

variable [Facts₀]

def dot_S32768x1024_S1024x128_S32768x128_1_0_0_1_n_n : DotDims S32768x1024 S1024x128 S32768x128 where
  lhsContracting := [1]
  rhsContracting := [0]
  lhsNonContracting := [0]
  rhsNonContracting := [1]
  lhsBatch := []
  rhsBatch := []
  wf := dot_S32768x1024_S1024x128_S32768x128_1_0_0_1_n_n_wf
def dot_S32768x128_S128x1024_S32768x1024_1_0_0_1_n_n : DotDims S32768x128 S128x1024 S32768x1024 where
  lhsContracting := [1]
  rhsContracting := [0]
  lhsNonContracting := [0]
  rhsNonContracting := [1]
  lhsBatch := []
  rhsBatch := []
  wf := dot_S32768x128_S128x1024_S32768x1024_1_0_0_1_n_n_wf

class Facts : Prop extends Facts₀ where

variable [Facts]
-- ==== Proof.Leapfrog.lean ====
/-
  The mathematics of one leapfrog step with a low-rank velocity-quadratic force, on the extended reals.

  For a state row `x v f : ι → EReal` (position, velocity, external force over the feature axis `ι`) and two
  factor matrices `U : ι → κ → EReal`, `W : κ → ι → EReal`, the force correction is
    Γ(x, v) j = (∑ k, tanh (∑ d, x d · U d k) · W k j) · v j · v j,
  and one step is
    v½ = v + c·f − c·Γ(x, v),   x' = x + e·v½,   v' = v½ + c·f − c·Γ(x', v½)
  for a half-step constant `c` and a step constant `e`. A second arrangement writes each kick as
  `v + c·(f − Γ)`. On the extended reals the two agree for every value of `v`, `f`, `Γ` — infinite ones
  included — as soon as `c` is a non-negative real: multiplication by such a `c` distributes over a difference
  (`EReal.mul_sub_of_nonneg_of_ne_top`), and addition is associative.
-/
import Idealize.ShloMosaic.PureOps.Ideal

noncomputable section

open scoped BigOperators

namespace Cert.Leapfrog

open Idealize.ShloMosaic

variable {ι κ : Type} [Fintype ι] [Fintype κ]

/-- The force correction Γ(x, v) at feature `j`: the rank-`κ` bilinear form through `tanh`, times `v j` twice. -/
def gam (U : ι → κ → EReal) (W : κ → ι → EReal) (x v : ι → EReal) (j : ι) : EReal :=
  (∑ k, Ideal.tanh (∑ d, x d * U d k) * W k j) * v j * v j

/-- The half-kicked velocity `v + c·f − c·Γ(x, v)`. -/
def vhalf (c : EReal) (U : ι → κ → EReal) (W : κ → ι → EReal) (x v f : ι → EReal) (j : ι) : EReal :=
  v j + c * f j - c * gam U W x v j

/-- The drifted position `x + e·v½`. -/
def xnew (c e : EReal) (U : ι → κ → EReal) (W : κ → ι → EReal) (x v f : ι → EReal) (j : ι) : EReal :=
  x j + e * vhalf c U W x v f j

/-- The fully kicked velocity `v½ + c·f − c·Γ(x', v½)`. -/
def vnew (c e : EReal) (U : ι → κ → EReal) (W : κ → ι → EReal) (x v f : ι → EReal) (j : ι) : EReal :=
  vhalf c U W x v f j + c * f j - c * gam U W (xnew c e U W x v f) (vhalf c U W x v f) j

/-- One kick in its two arrangements: `v + c·(f − g) = v + c·f − c·g` for a non-negative real `c` and ANY
    extended reals `v`, `f`, `g`. -/
theorem kick_eq {c : EReal} (h0 : 0 ≤ c) (ht : c ≠ ⊤) (v f g : EReal) :
    v + c * (f - g) = v + c * f - c * g := by
  rw [EReal.mul_sub_of_nonneg_of_ne_top h0 ht, add_sub_assoc]

/-- The half kick in the second arrangement is `vhalf`. -/
theorem vhalf_eq {c : EReal} (h0 : 0 ≤ c) (ht : c ≠ ⊤) (U : ι → κ → EReal) (W : κ → ι → EReal)
    (x v f : ι → EReal) (j : ι) :
    v j + c * (f j - gam U W x v j) = vhalf c U W x v f j :=
  kick_eq h0 ht _ _ _

/-- The full kick in the second arrangement is `vnew`. -/
theorem vnew_eq {c : EReal} (h0 : 0 ≤ c) (ht : c ≠ ⊤) (e : EReal) (U : ι → κ → EReal) (W : κ → ι → EReal)
    (x v f : ι → EReal) (j : ι) :
    vhalf c U W x v f j + c * (f j - gam U W (xnew c e U W x v f) (vhalf c U W x v f) j) = vnew c e U W x v f j :=
  kick_eq h0 ht _ _ _

/-! ## The two step constants -/

/-- The half-step constant: the binary32 number nearest 0.05. -/
def halfDt : EReal := Ideal.ofBits .f32 0x3D4CCCCD#32

/-- The step constant: the binary32 number nearest 0.1. -/
def stepDt : EReal := Ideal.ofBits .f32 0x3DCCCCCD#32

/-- The half-step constant is the real 13421773 / 2^28. -/
theorem halfDt_eq : halfDt = ((13421773 / 268435456 : ℝ) : EReal) := by
  unfold halfDt
  simp [Ideal.ofBits, Ideal.ieee, -EReal.coe_mul]; norm_num

theorem halfDt_nonneg : 0 ≤ halfDt := by
  rw [halfDt_eq]; exact EReal.coe_nonneg.mpr (by norm_num)

theorem halfDt_ne_top : halfDt ≠ ⊤ := by
  rw [halfDt_eq]; exact EReal.coe_ne_top _

end Cert.Leapfrog

end
-- ==== Proof.KernelRow.lean ====
/-
  The kernel body's three values, read at one element of a block.

  A block holds 512 rows of the state; the body loads the whole block of positions `x0`, velocities `x1` and
  forces `x2` and the two factor matrices `x3` ([1024, 128]) and `x4` ([128, 1024]). At row `p` and feature `q`
  its half-kicked velocity, its drifted position and its fully kicked velocity are `Leapfrog.vhalf`, `xnew` and
  `vnew` of ROW `p` of the three state blocks: each matrix product, read at an index, is the plain sum over its one
  contracted axis, a change of float format is the identity on extended reals, and everything else is pointwise.
-/
import proofs.«172410_j70635032150167_2_alg».proof.Proof.Gen.KernelIdeal.Skeleton
import proofs.«172410_j70635032150167_2_alg».proof.Proof.Leapfrog
import Idealize.ShloMosaic.Lib.ValueIdx
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.Leapfrog

/-! ## The two matrix products at an index -/

theorem lhs_in_0 (i : S512x128.Idx) (q : dot_S512x1024_S1024x128_S512x128_1_0_0_1_n_n.contr.Idx) :
    (dot_S512x1024_S1024x128_S512x128_1_0_0_1_n_n.lhsIdx i q 0).val = (i 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl
theorem lhs_in_1 (i : S512x128.Idx) (q : dot_S512x1024_S1024x128_S512x128_1_0_0_1_n_n.contr.Idx) :
    (dot_S512x1024_S1024x128_S512x128_1_0_0_1_n_n.lhsIdx i q 1).val = (q ⟨0, by decide⟩).val :=
  dot_S512x1024_S1024x128_S512x128_1_0_0_1_n_n.lhsIdx_val_of_single rfl i q
theorem rhs_in_0 (i : S512x128.Idx) (q : dot_S512x1024_S1024x128_S512x128_1_0_0_1_n_n.contr.Idx) :
    (dot_S512x1024_S1024x128_S512x128_1_0_0_1_n_n.rhsIdx i q 0).val = (q ⟨0, by decide⟩).val :=
  dot_S512x1024_S1024x128_S512x128_1_0_0_1_n_n.rhsIdx_val_of_single rfl i q
theorem rhs_in_1 (i : S512x128.Idx) (q : dot_S512x1024_S1024x128_S512x128_1_0_0_1_n_n.contr.Idx) :
    (dot_S512x1024_S1024x128_S512x128_1_0_0_1_n_n.rhsIdx i q 1).val = (i 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl

/-- The inner product [512, 1024] × [1024, 128] into a zero accumulator, at row `p` and rank index `k`: the sum over
    the 1024 features. -/
theorem matmul_in_apply (a : FVec Ideal S512x1024 .bf16) (b : FVec Ideal S1024x128 .bf16) (p : Fin 512) (k : Fin 128) :
    matmul dot_S512x1024_S1024x128_S512x128_1_0_0_1_n_n none a b (constant (F := Ideal) S512x128 .f32 0x00000000#32) (ix2 p k)
      = ∑ d : Fin 1024, a (ix2 p d) * b (ix2 d k) := by
  refine (Ideal.matmul_constant_zero_apply dot_S512x1024_S1024x128_S512x128_1_0_0_1_n_n none a b (ix2 p k)).trans ?_
  rw [← Equiv.sum_comp (contrEquiv1 dot_S512x1024_S1024x128_S512x128_1_0_0_1_n_n 1024 rfl rfl).symm]
  refine Finset.sum_congr rfl fun d _ => ?_
  have hd := contrEquiv1_symm_val dot_S512x1024_S1024x128_S512x128_1_0_0_1_n_n 1024 rfl rfl d
  have el : dot_S512x1024_S1024x128_S512x128_1_0_0_1_n_n.lhsIdx (ix2 p k) ((contrEquiv1 dot_S512x1024_S1024x128_S512x128_1_0_0_1_n_n 1024 rfl rfl).symm d) = ix2 p d := funext fun a => Fin.ext (by
    match a with
    | ⟨0, _⟩ => exact lhs_in_0 _ _
    | ⟨1, _⟩ => exact (lhs_in_1 _ _).trans hd)
  have er : dot_S512x1024_S1024x128_S512x128_1_0_0_1_n_n.rhsIdx (ix2 p k) ((contrEquiv1 dot_S512x1024_S1024x128_S512x128_1_0_0_1_n_n 1024 rfl rfl).symm d) = ix2 d k := funext fun a => Fin.ext (by
    match a with
    | ⟨0, _⟩ => exact (rhs_in_0 _ _).trans hd
    | ⟨1, _⟩ => exact rhs_in_1 _ _)
  rw [el, er]

theorem lhs_out_0 (i : S512x1024.Idx) (q : dot_S512x128_S128x1024_S512x1024_1_0_0_1_n_n.contr.Idx) :
    (dot_S512x128_S128x1024_S512x1024_1_0_0_1_n_n.lhsIdx i q 0).val = (i 0).val := by
  unfold DotDims.lhsIdx
  rw [dif_neg (show ¬(0 : Fin S512x128.rank) ∈ dot_S512x128_S128x1024_S512x1024_1_0_0_1_n_n.lhsBatch by decide), dif_pos (show (0 : Fin S512x128.rank) ∈ dot_S512x128_S128x1024_S512x1024_1_0_0_1_n_n.lhsNonContracting by decide)]
  rfl
theorem lhs_out_1 (i : S512x1024.Idx) (q : dot_S512x128_S128x1024_S512x1024_1_0_0_1_n_n.contr.Idx) :
    (dot_S512x128_S128x1024_S512x1024_1_0_0_1_n_n.lhsIdx i q 1).val = (q ⟨0, by decide⟩).val :=
  dot_S512x128_S128x1024_S512x1024_1_0_0_1_n_n.lhsIdx_val_of_single rfl i q
theorem rhs_out_0 (i : S512x1024.Idx) (q : dot_S512x128_S128x1024_S512x1024_1_0_0_1_n_n.contr.Idx) :
    (dot_S512x128_S128x1024_S512x1024_1_0_0_1_n_n.rhsIdx i q 0).val = (q ⟨0, by decide⟩).val :=
  dot_S512x128_S128x1024_S512x1024_1_0_0_1_n_n.rhsIdx_val_of_single rfl i q
theorem rhs_out_1 (i : S512x1024.Idx) (q : dot_S512x128_S128x1024_S512x1024_1_0_0_1_n_n.contr.Idx) :
    (dot_S512x128_S128x1024_S512x1024_1_0_0_1_n_n.rhsIdx i q 1).val = (i 1).val := by
  unfold DotDims.rhsIdx
  rw [dif_neg (show ¬(1 : Fin S128x1024.rank) ∈ dot_S512x128_S128x1024_S512x1024_1_0_0_1_n_n.rhsBatch by decide), dif_pos (show (1 : Fin S128x1024.rank) ∈ dot_S512x128_S128x1024_S512x1024_1_0_0_1_n_n.rhsNonContracting by decide)]
  rfl

/-- The outer product [512, 128] × [128, 1024] into a zero accumulator, at row `p` and feature `q`: the sum over
    the 128 rank indices. -/
theorem matmul_out_apply (a : FVec Ideal S512x128 .bf16) (b : FVec Ideal S128x1024 .bf16) (p : Fin 512) (q : Fin 1024) :
    matmul dot_S512x128_S128x1024_S512x1024_1_0_0_1_n_n none a b (constant (F := Ideal) S512x1024 .f32 0x00000000#32) (ix2 p q)
      = ∑ k : Fin 128, a (ix2 p k) * b (ix2 k q) := by
  refine (Ideal.matmul_constant_zero_apply dot_S512x128_S128x1024_S512x1024_1_0_0_1_n_n none a b (ix2 p q)).trans ?_
  rw [← Equiv.sum_comp (contrEquiv1 dot_S512x128_S128x1024_S512x1024_1_0_0_1_n_n 128 rfl rfl).symm]
  refine Finset.sum_congr rfl fun k _ => ?_
  have hk := contrEquiv1_symm_val dot_S512x128_S128x1024_S512x1024_1_0_0_1_n_n 128 rfl rfl k
  have el : dot_S512x128_S128x1024_S512x1024_1_0_0_1_n_n.lhsIdx (ix2 p q) ((contrEquiv1 dot_S512x128_S128x1024_S512x1024_1_0_0_1_n_n 128 rfl rfl).symm k) = ix2 p k := funext fun a => Fin.ext (by
    match a with
    | ⟨0, _⟩ => exact lhs_out_0 _ _
    | ⟨1, _⟩ => exact (lhs_out_1 _ _).trans hk)
  have er : dot_S512x128_S128x1024_S512x1024_1_0_0_1_n_n.rhsIdx (ix2 p q) ((contrEquiv1 dot_S512x128_S128x1024_S512x1024_1_0_0_1_n_n 128 rfl rfl).symm k) = ix2 k q := funext fun a => Fin.ext (by
    match a with
    | ⟨0, _⟩ => exact (rhs_out_0 _ _).trans hk
    | ⟨1, _⟩ => exact rhs_out_1 _ _)
  rw [el, er]

/-! ## The force correction of a block row -/

/-- `tanh (a · U) · W`, times `v` twice, at row `p` and feature `q` of a block, is `Leapfrog.gam` of row `p`:
    for ANY position block `a` (the body applies it to the loaded positions and to the drifted ones). -/
theorem gam_apply (a v : FVec Ideal S512x1024 .f32) (x3 : Vec Ideal S1024x128 .bf16) (x4 : Vec Ideal S128x1024 .bf16)
    (p : Fin 512) (q : Fin 1024) :
    mulf (mulf (matmul dot_S512x128_S128x1024_S512x1024_1_0_0_1_n_n none
        (truncf .bf16 (tanh (matmul dot_S512x1024_S1024x128_S512x128_1_0_0_1_n_n none (truncf .bf16 a bitsLt_bf16_f32) (k0_pay1 x3)
          (constant (F := Ideal) S512x128 .f32 0x00000000#32))) bitsLt_bf16_f32)
        (k0_pay2 x4) (constant (F := Ideal) S512x1024 .f32 0x00000000#32)) v) v (ix2 p q)
      = gam (fun d k => x3 (ix2 d k)) (fun k j => x4 (ix2 k j)) (fun d => a (ix2 p d)) (fun d => v (ix2 p d)) q := by
  rw [mulf_apply, mulf_apply, matmul_out_apply]
  unfold gam
  refine congrArg (fun s => s * v (ix2 p q) * v (ix2 p q)) (Finset.sum_congr rfl fun k _ => ?_)
  rw [truncf_apply]
  show FloatOps.tanh (matmul dot_S512x1024_S1024x128_S512x128_1_0_0_1_n_n none (truncf .bf16 a bitsLt_bf16_f32) (k0_pay1 x3)
      (constant (F := Ideal) S512x128 .f32 0x00000000#32) (ix2 p k)) * k0_pay2 x4 (ix2 k q) = _
  rw [matmul_in_apply, Ideal.tanh_def]
  unfold k0_pay1 k0_pay2
  rw [shapeCast_self, shapeCast_self]
  rfl

/-! ## The three payloads -/

/-- The half-kicked velocity at row `p`, feature `q`. -/
theorem vhalf_apply (x0 x1 x2 : Vec Ideal S512x1024 .f32) (x3 : Vec Ideal S1024x128 .bf16) (x4 : Vec Ideal S128x1024 .bf16)
    (p : Fin 512) (q : Fin 1024) :
    k0_pay4 (F := Ideal) x0 x1 x2 x3 x4 (ix2 p q)
      = vhalf halfDt (fun d k => x3 (ix2 d k)) (fun k j => x4 (ix2 k j))
          (fun d => x0 (ix2 p d)) (fun d => x1 (ix2 p d)) (fun d => x2 (ix2 p d)) q := by
  unfold k0_pay4
  rw [subf_apply, addf_apply, mulf_apply, gam_apply]
  rfl

/-- The drifted position at row `p`, feature `q`. -/
theorem xnew_apply (x0 x1 x2 : Vec Ideal S512x1024 .f32) (x3 : Vec Ideal S1024x128 .bf16) (x4 : Vec Ideal S128x1024 .bf16)
    (p : Fin 512) (q : Fin 1024) :
    k0_pay5 (F := Ideal) x0 x1 x2 x3 x4 (ix2 p q)
      = xnew halfDt stepDt (fun d k => x3 (ix2 d k)) (fun k j => x4 (ix2 k j))
          (fun d => x0 (ix2 p d)) (fun d => x1 (ix2 p d)) (fun d => x2 (ix2 p d)) q := by
  unfold k0_pay5
  rw [addf_apply, mulf_apply, vhalf_apply]
  rfl

/-- The fully kicked velocity at row `p`, feature `q`: the force correction is taken at the drifted positions and
    the half-kicked velocities of the same row. -/
theorem vnew_apply (x0 x1 x2 : Vec Ideal S512x1024 .f32) (x3 : Vec Ideal S1024x128 .bf16) (x4 : Vec Ideal S128x1024 .bf16)
    (p : Fin 512) (q : Fin 1024) :
    k0_pay6 (F := Ideal) x0 x1 x2 x3 x4 (ix2 p q)
      = vnew halfDt stepDt (fun d k => x3 (ix2 d k)) (fun k j => x4 (ix2 k j))
          (fun d => x0 (ix2 p d)) (fun d => x1 (ix2 p d)) (fun d => x2 (ix2 p d)) q := by
  unfold k0_pay6
  rw [subf_apply, addf_apply, mulf_apply, gam_apply, vhalf_apply]
  unfold vnew
  have hx : (fun d => k0_pay5 (F := Ideal) x0 x1 x2 x3 x4 (ix2 p d))
      = xnew halfDt stepDt (fun d k => x3 (ix2 d k)) (fun k j => x4 (ix2 k j))
          (fun d => x0 (ix2 p d)) (fun d => x1 (ix2 p d)) (fun d => x2 (ix2 p d)) :=
    funext fun d => xnew_apply x0 x1 x2 x3 x4 p d
  have hv : (fun d => k0_pay4 (F := Ideal) x0 x1 x2 x3 x4 (ix2 p d))
      = vhalf halfDt (fun d k => x3 (ix2 d k)) (fun k j => x4 (ix2 k j))
          (fun d => x0 (ix2 p d)) (fun d => x1 (ix2 p d)) (fun d => x2 (ix2 p d)) :=
    funext fun d => vhalf_apply x0 x1 x2 x3 x4 p d
  rw [hx, hv]
  rfl

end Cert.KernelIdeal.Row

end
-- ==== Proof.LeapfrogArrays.lean ====
/-
  One leapfrog step of the whole state: 32768 independent rows of 1024 features.

  The three state arrays `X V Fo` are [32768, 1024], the factor matrices `U` [1024, 128] and `W` [128, 1024]. Element
  `(r, q)` of the new positions and of the new velocities is `Leapfrog.xnew` / `Leapfrog.vnew` of ROW `r` of the state,
  at feature `q`: rows do not interact.
-/
import proofs.«172410_j70635032150167_2_alg».proof.Proof.Leapfrog
import Idealize.ShloMosaic.Lib.ValueIdx

noncomputable section

namespace Cert.Leapfrog

open Idealize.ShloMosaic Idealize.ShloMosaic.ValueIdx

/-- The new positions of the whole state. -/
def Xnew (X V Fo : (⟨2, ![32768, 1024]⟩ : Shape).Idx → EReal) (U : (⟨2, ![1024, 128]⟩ : Shape).Idx → EReal)
    (W : (⟨2, ![128, 1024]⟩ : Shape).Idx → EReal) : (⟨2, ![32768, 1024]⟩ : Shape).Idx → EReal :=
  fun i => xnew halfDt stepDt (fun (d : Fin 1024) (k : Fin 128) => U (ix2 d k)) (fun (k : Fin 128) (j : Fin 1024) => W (ix2 k j))
    (fun (d : Fin 1024) => X (ix2 (i 0) d)) (fun (d : Fin 1024) => V (ix2 (i 0) d)) (fun (d : Fin 1024) => Fo (ix2 (i 0) d)) (i 1)

/-- The new velocities of the whole state. -/
def Vnew (X V Fo : (⟨2, ![32768, 1024]⟩ : Shape).Idx → EReal) (U : (⟨2, ![1024, 128]⟩ : Shape).Idx → EReal)
    (W : (⟨2, ![128, 1024]⟩ : Shape).Idx → EReal) : (⟨2, ![32768, 1024]⟩ : Shape).Idx → EReal :=
  fun i => vnew halfDt stepDt (fun (d : Fin 1024) (k : Fin 128) => U (ix2 d k)) (fun (k : Fin 128) (j : Fin 1024) => W (ix2 k j))
    (fun (d : Fin 1024) => X (ix2 (i 0) d)) (fun (d : Fin 1024) => V (ix2 (i 0) d)) (fun (d : Fin 1024) => Fo (ix2 (i 0) d)) (i 1)

/-- At `(r, q)`: row `r`, feature `q`. -/
theorem Xnew_apply (X V Fo : (⟨2, ![32768, 1024]⟩ : Shape).Idx → EReal) (U : (⟨2, ![1024, 128]⟩ : Shape).Idx → EReal)
    (W : (⟨2, ![128, 1024]⟩ : Shape).Idx → EReal) (r : Fin 32768) (q : Fin 1024) :
    Xnew X V Fo U W (ix2 r q)
      = xnew halfDt stepDt (fun (d : Fin 1024) (k : Fin 128) => U (ix2 d k)) (fun (k : Fin 128) (j : Fin 1024) => W (ix2 k j))
          (fun (d : Fin 1024) => X (ix2 r d)) (fun (d : Fin 1024) => V (ix2 r d)) (fun (d : Fin 1024) => Fo (ix2 r d)) q := rfl

theorem Vnew_apply (X V Fo : (⟨2, ![32768, 1024]⟩ : Shape).Idx → EReal) (U : (⟨2, ![1024, 128]⟩ : Shape).Idx → EReal)
    (W : (⟨2, ![128, 1024]⟩ : Shape).Idx → EReal) (r : Fin 32768) (q : Fin 1024) :
    Vnew X V Fo U W (ix2 r q)
      = vnew halfDt stepDt (fun (d : Fin 1024) (k : Fin 128) => U (ix2 d k)) (fun (k : Fin 128) (j : Fin 1024) => W (ix2 k j))
          (fun (d : Fin 1024) => X (ix2 r d)) (fun (d : Fin 1024) => V (ix2 r d)) (fun (d : Fin 1024) => Fo (ix2 r d)) q := rfl

end Cert.Leapfrog

end
-- ==== Proof.KernelArray.lean ====
/-
  From blocks to arrays: after the run the two result arrays are `Leapfrog.Xnew` and `Leapfrog.Vnew` of the arguments.

  The grid has 64 points; point `t` stages rows `512·t … 512·t + 511` of the three state arrays (all 1024 features)
  and the two whole factor matrices, and writes back the same rows of the two results. Row `p` of a block is row
  `512·t + p` of the array, the body's values at `(p, q)` depend on that row only (Proof/KernelRow.lean), so what point
  `t` writes back is block `t` of the whole-array function; the 64 blocks cover the array (row `r` lies in block
  `r / 512`). The factor matrices reach the body through a change of float format, which is the identity on extended
  reals.
-/
import proofs.«172410_j70635032150167_2_alg».proof.Proof.Gen.KernelIdeal.Value
import proofs.«172410_j70635032150167_2_alg».proof.Proof.KernelRow
import proofs.«172410_j70635032150167_2_alg».proof.Proof.LeapfrogArrays
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.Leapfrog Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 64 grid points -/

/-- Every state window and the second result window move with the first result window along the rows and sit at
    column block 0; the factor matrices' windows never move; the row block index stays below 64. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = win0_5.index t (0 : Fin 2) ∧ win0_6.index t (1 : Fin 2) = 0
    ∧ win0_5.index t (0 : Fin 2) ≤ 63 ∧ win0_5.index t (1 : Fin 2) = 0 :=
  (by decide +kernel : ∀ t : Fin grid0.N, _)

/-- Every row block is some point's. -/
theorem idx_onto : ∀ q0 : Fin 64, ∃ t : Fin cfg0.N, win0_5.index t (0 : Fin 2) = q0.val :=
  (by decide +kernel : ∀ q0 : Fin 64, ∃ t : Fin grid0.N, win0_5.index t (0 : Fin 2) = q0.val)

/-- The array row that row `p` of point `t`'s blocks is. -/
def rowOf (t : Fin cfg0.N) (p : Fin 512) : Fin 32768 :=
  ⟨win0_5.index t (0 : Fin 2) * 512 + p.val, by
    obtain ⟨-, -, -, -, -, -, -, -, -, -, -, -, h, -⟩ := idx_facts t
    have := p.isLt
    omega⟩

/-! ## The blocks, read at an element -/

/-- Row `p` of the position block at point `t` is row `rowOf t p` of the position array. -/
theorem state_blk0 (c : Dev nD) (t : Fin cfg0.N) (p : Fin 512) (d : Fin 1024) :
    (iblk m c 0 t : Vec Ideal S512x1024 .f32) (ix2 p d) = (V m c main_arg0 : S32768x1024.Idx → EReal) (ix2 (rowOf t p) d) := by
  obtain ⟨e0, e1, -⟩ := idx_facts t
  show (V m c main_arg0 : S32768x1024.Idx → EReal) (((cfg0.win 0).blk t).view.emb (ix2 p d)) = _
  refine congrArg (V m c main_arg0 : S32768x1024.Idx → EReal) ?_
  funext a; apply Fin.ext
  match a with
  | ⟨0, _⟩ => show win0_0.index t (0 : Fin 2) * 512 + 1 * p.val = win0_5.index t (0 : Fin 2) * 512 + p.val; omega
  | ⟨1, _⟩ => show win0_0.index t (1 : Fin 2) * 1024 + 1 * d.val = d.val; omega

/-- The same for the velocity block. -/
theorem state_blk1 (c : Dev nD) (t : Fin cfg0.N) (p : Fin 512) (d : Fin 1024) :
    (iblk m c 1 t : Vec Ideal S512x1024 .f32) (ix2 p d) = (V m c main_arg1 : S32768x1024.Idx → EReal) (ix2 (rowOf t p) d) := by
  obtain ⟨-, -, e0, e1, -⟩ := idx_facts t
  show (V m c main_arg1 : S32768x1024.Idx → EReal) (((cfg0.win 1).blk t).view.emb (ix2 p d)) = _
  refine congrArg (V m c main_arg1 : S32768x1024.Idx → EReal) ?_
  funext a; apply Fin.ext
  match a with
  | ⟨0, _⟩ => show win0_1.index t (0 : Fin 2) * 512 + 1 * p.val = win0_5.index t (0 : Fin 2) * 512 + p.val; omega
  | ⟨1, _⟩ => show win0_1.index t (1 : Fin 2) * 1024 + 1 * d.val = d.val; omega

/-- The same for the force block. -/
theorem state_blk2 (c : Dev nD) (t : Fin cfg0.N) (p : Fin 512) (d : Fin 1024) :
    (iblk m c 2 t : Vec Ideal S512x1024 .f32) (ix2 p d) = (V m c main_arg2 : S32768x1024.Idx → EReal) (ix2 (rowOf t p) d) := by
  obtain ⟨-, -, -, -, e0, e1, -⟩ := idx_facts t
  show (V m c main_arg2 : S32768x1024.Idx → EReal) (((cfg0.win 2).blk t).view.emb (ix2 p d)) = _
  refine congrArg (V m c main_arg2 : S32768x1024.Idx → EReal) ?_
  funext a; apply Fin.ext
  match a with
  | ⟨0, _⟩ => show win0_2.index t (0 : Fin 2) * 512 + 1 * p.val = win0_5.index t (0 : Fin 2) * 512 + p.val; omega
  | ⟨1, _⟩ => show win0_2.index t (1 : Fin 2) * 1024 + 1 * d.val = d.val; omega

/-- The first factor matrix's block is the whole matrix at every point. -/
theorem factor_blk3 (c : Dev nD) (t : Fin cfg0.N) (d : Fin 1024) (k : Fin 128) :
    (iblk m c 3 t : Vec Ideal S1024x128 .bf16) (ix2 d k) = (V m c main_v0 : S1024x128.Idx → EReal) (ix2 d k) := by
  obtain ⟨-, -, -, -, -, -, e0, e1, -⟩ := idx_facts t
  show (V m c main_v0 : S1024x128.Idx → EReal) (((cfg0.win 3).blk t).view.emb (ix2 d k)) = _
  refine congrArg (V m c main_v0 : S1024x128.Idx → EReal) ?_
  funext a; apply Fin.ext
  match a with
  | ⟨0, _⟩ => show win0_3.index t (0 : Fin 2) * 1024 + 1 * d.val = d.val; omega
  | ⟨1, _⟩ => show win0_3.index t (1 : Fin 2) * 128 + 1 * k.val = k.val; omega

/-- So is the second's. -/
theorem factor_blk4 (c : Dev nD) (t : Fin cfg0.N) (k : Fin 128) (j : Fin 1024) :
    (iblk m c 4 t : Vec Ideal S128x1024 .bf16) (ix2 k j) = (V m c main_v1 : S128x1024.Idx → EReal) (ix2 k j) := by
  obtain ⟨-, -, -, -, -, -, -, -, e0, e1, -⟩ := idx_facts t
  show (V m c main_v1 : S128x1024.Idx → EReal) (((cfg0.win 4).blk t).view.emb (ix2 k j)) = _
  refine congrArg (V m c main_v1 : S128x1024.Idx → EReal) ?_
  funext a; apply Fin.ext
  match a with
  | ⟨0, _⟩ => show win0_4.index t (0 : Fin 2) * 128 + 1 * k.val = k.val; omega
  | ⟨1, _⟩ => show win0_4.index t (1 : Fin 2) * 1024 + 1 * j.val = j.val; omega

/-- Element `(p, q)` of the first result's block at point `t` is element `(rowOf t p, q)` of the array. -/
theorem emb_out5 (t : Fin cfg0.N) (p : Fin 512) (q : Fin 1024) :
    ((cfg0.win 5).blk t).view.emb (ix2 p q) = (ix2 (rowOf t p) q : S32768x1024.Idx) := by
  obtain ⟨-, -, -, -, -, -, -, -, -, -, -, -, -, e1⟩ := idx_facts t
  funext a; apply Fin.ext
  match a with
  | ⟨0, _⟩ => show win0_5.index t (0 : Fin 2) * 512 + 1 * p.val = win0_5.index t (0 : Fin 2) * 512 + p.val; omega
  | ⟨1, _⟩ => show win0_5.index t (1 : Fin 2) * 1024 + 1 * q.val = q.val; omega

/-- The same for the second result's block. -/
theorem emb_out6 (t : Fin cfg0.N) (p : Fin 512) (q : Fin 1024) :
    ((cfg0.win 6).blk t).view.emb (ix2 p q) = (ix2 (rowOf t p) q : S32768x1024.Idx) := by
  obtain ⟨-, -, -, -, -, -, -, -, -, -, e0, e1, -⟩ := idx_facts t
  funext a; apply Fin.ext
  match a with
  | ⟨0, _⟩ => show win0_6.index t (0 : Fin 2) * 512 + 1 * p.val = win0_5.index t (0 : Fin 2) * 512 + p.val; omega
  | ⟨1, _⟩ => show win0_6.index t (1 : Fin 2) * 1024 + 1 * q.val = q.val; omega

/-! ## What each point writes back -/

/-- Point `t` writes back block `t` of the new positions of the state as the region finds it. -/
theorem flushed5_eq (c : Dev nD) (t : Fin cfg0.N) :
    (dats m 0 c).flushed 5 t = ((cfg0.win 5).blk t).view.read (Elt Ideal)
      (Xnew (V m c main_arg0) (V m c main_arg1) (V m c main_arg2) (V m c main_v0) (V m c main_v1)) := by
  rw [Value.flushed5]
  unfold out0_5
  rw [View.canon_unit_zero hz]
  simp only [View.ld_unit_zero (S := S512x1024) hz, View.ld_unit_zero (S := S1024x128) hz, View.ld_unit_zero (S := S128x1024) hz]
  refine funext fun (j : S512x1024.Idx) => ?_
  obtain ⟨p, q, rfl⟩ : ∃ (p : Fin 512) (q : Fin 1024), j = ix2 p q := ⟨j 0, j 1, eq_ix2 j⟩
  show k0_pay5 (F := Ideal) (iblk m c 0 t) (iblk m c 1 t) (iblk m c 2 t) (iblk m c 3 t) (iblk m c 4 t) (ix2 p q)
    = Xnew (V m c main_arg0) (V m c main_arg1) (V m c main_arg2) (V m c main_v0) (V m c main_v1) (((cfg0.win 5).blk t).view.emb (ix2 p q))
  rw [emb_out5 t p q, Xnew_apply]
  refine (Row.xnew_apply (iblk m c 0 t) (iblk m c 1 t) (iblk m c 2 t) (iblk m c 3 t) (iblk m c 4 t) p q).trans ?_
  simp only [state_blk0 m c t p, state_blk1 m c t p, state_blk2 m c t p, factor_blk3 m c t, factor_blk4 m c t]

/-- Point `t` writes back block `t` of the new velocities of the state as the region finds it. -/
theorem flushed6_eq (c : Dev nD) (t : Fin cfg0.N) :
    (dats m 0 c).flushed 6 t = ((cfg0.win 6).blk t).view.read (Elt Ideal)
      (Vnew (V m c main_arg0) (V m c main_arg1) (V m c main_arg2) (V m c main_v0) (V m c main_v1)) := by
  rw [Value.flushed6]
  unfold out0_6
  rw [View.canon_unit_zero hz]
  simp only [View.ld_unit_zero (S := S512x1024) hz, View.ld_unit_zero (S := S1024x128) hz, View.ld_unit_zero (S := S128x1024) hz]
  refine funext fun (j : S512x1024.Idx) => ?_
  obtain ⟨p, q, rfl⟩ : ∃ (p : Fin 512) (q : Fin 1024), j = ix2 p q := ⟨j 0, j 1, eq_ix2 j⟩
  show k0_pay6 (F := Ideal) (iblk m c 0 t) (iblk m c 1 t) (iblk m c 2 t) (iblk m c 3 t) (iblk m c 4 t) (ix2 p q)
    = Vnew (V m c main_arg0) (V m c main_arg1) (V m c main_arg2) (V m c main_v0) (V m c main_v1) (((cfg0.win 6).blk t).view.emb (ix2 p q))
  rw [emb_out6 t p q, Vnew_apply]
  refine (Row.vnew_apply (iblk m c 0 t) (iblk m c 1 t) (iblk m c 2 t) (iblk m c 3 t) (iblk m c 4 t) p q).trans ?_
  simp only [state_blk0 m c t p, state_blk1 m c t p, state_blk2 m c t p, factor_blk3 m c t, factor_blk4 m c t]

/-! ## The blocks cover the arrays -/

/-- An index of the array is in point `t`'s block of the first result iff each coordinate is in the block's range. -/
theorem mem_blk5 (t : Fin cfg0.N) (i : S32768x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v2_0).slice (win0_5.rect t)).set ↔ _
  rw [View.set_slice_whole, Rect.mem_set_unit]
  exact Iff.rfl

theorem mem_blk6 (t : Fin cfg0.N) (i : S32768x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v2_1).slice (win0_6.rect t)).set ↔ _
  rw [View.set_slice_whole, Rect.mem_set_unit]
  exact Iff.rfl

/-- Row `r` lies in the block of the point whose row block index is `r / 512`. -/
theorem cover5 (i : S32768x1024.Idx) :
    ∃ t : Fin cfg0.N, (cfg0.win 5).flush t = true ∧ i ∈ ((cfg0.win 5).blk t).view.set := by
  have hi0 : (i 0).val < 32768 := idx2_lt0 i
  have hi1 : (i 1).val < 1024 := idx2_lt1 i
  obtain ⟨t, q0⟩ := idx_onto ⟨(i 0).val / 512, by omega⟩
  obtain ⟨-, -, -, -, -, -, -, -, -, -, -, -, -, q1⟩ := idx_facts t
  have q0' : win0_5.index t (0 : Fin 2) = (i 0).val / 512 := q0
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

theorem cover6 (i : S32768x1024.Idx) :
    ∃ t : Fin cfg0.N, (cfg0.win 6).flush t = true ∧ i ∈ ((cfg0.win 6).blk t).view.set := by
  have hi0 : (i 0).val < 32768 := idx2_lt0 i
  have hi1 : (i 1).val < 1024 := idx2_lt1 i
  obtain ⟨t, q0⟩ := idx_onto ⟨(i 0).val / 512, by omega⟩
  obtain ⟨-, -, -, -, -, -, -, -, -, -, e0, e1, -, -⟩ := idx_facts t
  have q0' : win0_5.index t (0 : Fin 2) = (i 0).val / 512 := q0
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-! ## The factor matrices as the region finds them -/

/-- The first factor matrix reaches the region through a narrowing of its float format: on extended reals, itself. -/
theorem V_factor0 (c : Dev nD) :
    (V m c main_v0 : S1024x128.Idx → EReal) = (m ((c : Thread nD τ).loc main_arg3) : S1024x128.Idx → EReal) := by
  dsimp only [Gen.V, Gen.hostOps0]
  after_results
  rfl

theorem V_factor1 (c : Dev nD) :
    (V m c main_v1 : S128x1024.Idx → EReal) = (m ((c : Thread nD τ).loc main_arg4) : S128x1024.Idx → EReal) := by
  dsimp only [Gen.V, Gen.hostOps0]
  after_results
  rfl

/-! ## The arrays after the run -/

/-- The first result array ends holding the new positions of the arguments. -/
theorem final5 (c : Dev nD) : (dats m 0 c).arrAt 5 cfg0.N
    = Xnew (m ((c : Thread nD τ).loc main_arg0)) (m ((c : Thread nD τ).loc main_arg1)) (m ((c : Thread nD τ).loc main_arg2))
        (m ((c : Thread nD τ).loc main_arg3)) (m ((c : Thread nD τ).loc main_arg4)) := by
  rw [← V_main_arg0 m c, ← V_main_arg1 m c, ← V_main_arg2 m c, ← V_factor0 m c, ← V_factor1 m c]
  exact (dats m 0 c).arrAt_eq_of_cover 5 _ (fun t _ => flushed5_eq m c t) cover5

/-- The second result array ends holding the new velocities of the arguments. -/
theorem final6 (c : Dev nD) : (dats m 0 c).arrAt 6 cfg0.N
    = Vnew (m ((c : Thread nD τ).loc main_arg0)) (m ((c : Thread nD τ).loc main_arg1)) (m ((c : Thread nD τ).loc main_arg2))
        (m ((c : Thread nD τ).loc main_arg3)) (m ((c : Thread nD τ).loc main_arg4)) := by
  rw [← V_main_arg0 m c, ← V_main_arg1 m c, ← V_main_arg2 m c, ← V_factor0 m c, ← V_factor1 m c]
  exact (dats m 0 c).arrAt_eq_of_cover 6 _ (fun t _ => flushed6_eq m c t) cover6

/-- The run: both results at their whole-array functions of the arguments, the arguments unchanged. -/
theorem run : θ_run defs (onTc (τ := τ) (main (F := Ideal))) ⟨m, fun _ => 0, ρ⟩ fun r => ∀ c : Dev nD,
      r.2.mem ((c : Thread nD τ).loc main_v2_0)
        = Xnew (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_v2_1)
        = Vnew (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Value.run_blocks m ρ)

end Cert.KernelIdeal.Whole

end
-- ==== Proof.RefRow.lean ====
/-
  The reference's three values, read at one element of the whole arrays.

  The reference works on the whole [32768, 1024] arrays: at row `r` and feature `q` its half-kicked velocity, its
  drifted position and its fully kicked velocity are `Leapfrog.vhalf`, `xnew` and `vnew` of ROW `r` of the three
  state arrays. Its kicks are written `v + c·(f − Γ)`; the half-step constant is a non-negative real, so each is
  `v + c·f − c·Γ` (`Leapfrog.kick_eq`), whatever the extended reals `v`, `f`, `Γ` are. Each matrix product is read as
  the sum over its one contracted axis by the generated read-at-an-index lemmas.
-/
import proofs.«172410_j70635032150167_2_alg».proof.Proof.Gen.ReferenceIdeal.Read
import proofs.«172410_j70635032150167_2_alg».proof.Proof.Leapfrog

noncomputable section

open scoped BigOperators

namespace Cert.ReferenceIdeal.Row

open Cert.ReferenceIdeal Cert.ReferenceIdeal.Read Idealize.ShloMosaic Idealize.ShloMosaic.ValueIdx Cert.Leapfrog

/-! ## The products' operand indices at `(r, ·)` -/

theorem lidx_in (r : Fin 32768) (k : Fin 128) (d : Fin 1024) : lidx_main_v0 (ix2 r k) d = ix2 r d :=
  funext fun a => by match a with | ⟨0, _⟩ => rfl | ⟨1, _⟩ => rfl
theorem ridx_in (r : Fin 32768) (k : Fin 128) (d : Fin 1024) : ridx_main_v0 (ix2 r k) d = ix2 d k :=
  funext fun a => by match a with | ⟨0, _⟩ => rfl | ⟨1, _⟩ => rfl
theorem lidx_out (r : Fin 32768) (q : Fin 1024) (k : Fin 128) : lidx_main_v2 (ix2 r q) k = ix2 r k :=
  funext fun a => by match a with | ⟨0, _⟩ => rfl | ⟨1, _⟩ => rfl
theorem ridx_out (r : Fin 32768) (q : Fin 1024) (k : Fin 128) : ridx_main_v2 (ix2 r q) k = ix2 k q :=
  funext fun a => by match a with | ⟨0, _⟩ => rfl | ⟨1, _⟩ => rfl
theorem lidx_in' (r : Fin 32768) (k : Fin 128) (d : Fin 1024) : lidx_main_v12 (ix2 r k) d = ix2 r d :=
  funext fun a => by match a with | ⟨0, _⟩ => rfl | ⟨1, _⟩ => rfl
theorem ridx_in' (r : Fin 32768) (k : Fin 128) (d : Fin 1024) : ridx_main_v12 (ix2 r k) d = ix2 d k :=
  funext fun a => by match a with | ⟨0, _⟩ => rfl | ⟨1, _⟩ => rfl
theorem lidx_out' (r : Fin 32768) (q : Fin 1024) (k : Fin 128) : lidx_main_v14 (ix2 r q) k = ix2 r k :=
  funext fun a => by match a with | ⟨0, _⟩ => rfl | ⟨1, _⟩ => rfl
theorem ridx_out' (r : Fin 32768) (q : Fin 1024) (k : Fin 128) : ridx_main_v14 (ix2 r q) k = ix2 k q :=
  funext fun a => by match a with | ⟨0, _⟩ => rfl | ⟨1, _⟩ => rfl

/-! ## The first force correction, the half kick and the drift -/

/-- `(tanh (X · U) · W) · V · V` at `(r, q)` is `Leapfrog.gam` of row `r`. -/
theorem gam_first (X V : (⟨S32768x1024, .f32⟩ : BufTy).Contents (Elt Ideal)) (U : (⟨S1024x128, .f32⟩ : BufTy).Contents (Elt Ideal)) (W : (⟨S128x1024, .f32⟩ : BufTy).Contents (Elt Ideal)) (r : Fin 32768) (q : Fin 1024) :
    val_main_v4 (F := Ideal) X V U W (ix2 r q)
      = gam (fun (d : Fin 1024) (k : Fin 128) => U (ix2 d k)) (fun (k : Fin 128) (j : Fin 1024) => W (ix2 k j)) (fun (d : Fin 1024) => X (ix2 r d)) (fun (d : Fin 1024) => V (ix2 r d)) q := by
  rw [val_main_v4_apply, val_main_v3_apply, val_main_v2_apply]
  unfold gam
  refine congrArg (fun s => s * V (ix2 r q) * V (ix2 r q)) (Finset.sum_congr rfl fun k _ => ?_)
  rw [lidx_out, ridx_out, val_main_v1_apply, val_main_v0_apply, Ideal.hostUnary_tanh_def]
  refine congrArg (fun s => Ideal.tanh s * W (ix2 k q)) (Finset.sum_congr rfl fun d _ => ?_)
  rw [lidx_in, ridx_in]

/-- The half-kicked velocity at `(r, q)`. -/
theorem vhalf_apply (X V Fo : (⟨S32768x1024, .f32⟩ : BufTy).Contents (Elt Ideal)) (U : (⟨S1024x128, .f32⟩ : BufTy).Contents (Elt Ideal)) (W : (⟨S128x1024, .f32⟩ : BufTy).Contents (Elt Ideal)) (r : Fin 32768) (q : Fin 1024) :
    val_main_v8 (F := Ideal) X V Fo U W (ix2 r q) = vhalf halfDt (fun (d : Fin 1024) (k : Fin 128) => U (ix2 d k)) (fun (k : Fin 128) (j : Fin 1024) => W (ix2 k j)) (fun (d : Fin 1024) => X (ix2 r d)) (fun (d : Fin 1024) => V (ix2 r d)) (fun (d : Fin 1024) => Fo (ix2 r d)) q := by
  rw [val_main_v8_apply, val_main_v7_apply, val_main_v6_apply, val_main_cst_apply, val_main_v5_apply, gam_first]
  exact vhalf_eq halfDt_nonneg halfDt_ne_top (fun (d : Fin 1024) (k : Fin 128) => U (ix2 d k)) (fun (k : Fin 128) (j : Fin 1024) => W (ix2 k j)) (fun (d : Fin 1024) => X (ix2 r d)) (fun (d : Fin 1024) => V (ix2 r d)) (fun (d : Fin 1024) => Fo (ix2 r d)) q

/-- The drifted position at `(r, q)`. -/
theorem xnew_apply (X V Fo : (⟨S32768x1024, .f32⟩ : BufTy).Contents (Elt Ideal)) (U : (⟨S1024x128, .f32⟩ : BufTy).Contents (Elt Ideal)) (W : (⟨S128x1024, .f32⟩ : BufTy).Contents (Elt Ideal)) (r : Fin 32768) (q : Fin 1024) :
    val_main_v11 (F := Ideal) X V Fo U W (ix2 r q) = xnew halfDt stepDt (fun (d : Fin 1024) (k : Fin 128) => U (ix2 d k)) (fun (k : Fin 128) (j : Fin 1024) => W (ix2 k j)) (fun (d : Fin 1024) => X (ix2 r d)) (fun (d : Fin 1024) => V (ix2 r d)) (fun (d : Fin 1024) => Fo (ix2 r d)) q := by
  rw [val_main_v11_apply, val_main_v10_apply, val_main_v9_apply, val_main_cst_0_apply, vhalf_apply]
  rfl

/-! ## The second force correction and the full kick -/

/-- The second force correction at `(r, q)`: `Leapfrog.gam` of row `r` of the drifted positions and the half-kicked
    velocities. -/
theorem gam_second (X V Fo : (⟨S32768x1024, .f32⟩ : BufTy).Contents (Elt Ideal)) (U : (⟨S1024x128, .f32⟩ : BufTy).Contents (Elt Ideal)) (W : (⟨S128x1024, .f32⟩ : BufTy).Contents (Elt Ideal)) (r : Fin 32768) (q : Fin 1024) :
    val_main_v16 (F := Ideal) X V Fo U W (ix2 r q)
      = gam (fun (d : Fin 1024) (k : Fin 128) => U (ix2 d k)) (fun (k : Fin 128) (j : Fin 1024) => W (ix2 k j))
          (xnew halfDt stepDt (fun (d : Fin 1024) (k : Fin 128) => U (ix2 d k)) (fun (k : Fin 128) (j : Fin 1024) => W (ix2 k j)) (fun (d : Fin 1024) => X (ix2 r d)) (fun (d : Fin 1024) => V (ix2 r d)) (fun (d : Fin 1024) => Fo (ix2 r d))) (vhalf halfDt (fun (d : Fin 1024) (k : Fin 128) => U (ix2 d k)) (fun (k : Fin 128) (j : Fin 1024) => W (ix2 k j)) (fun (d : Fin 1024) => X (ix2 r d)) (fun (d : Fin 1024) => V (ix2 r d)) (fun (d : Fin 1024) => Fo (ix2 r d))) q := by
  rw [val_main_v16_apply, val_main_v15_apply, val_main_v14_apply, vhalf_apply]
  unfold gam
  refine congrArg (fun s => s * vhalf halfDt (fun (d : Fin 1024) (k : Fin 128) => U (ix2 d k)) (fun (k : Fin 128) (j : Fin 1024) => W (ix2 k j)) (fun (d : Fin 1024) => X (ix2 r d)) (fun (d : Fin 1024) => V (ix2 r d)) (fun (d : Fin 1024) => Fo (ix2 r d)) q * vhalf halfDt (fun (d : Fin 1024) (k : Fin 128) => U (ix2 d k)) (fun (k : Fin 128) (j : Fin 1024) => W (ix2 k j)) (fun (d : Fin 1024) => X (ix2 r d)) (fun (d : Fin 1024) => V (ix2 r d)) (fun (d : Fin 1024) => Fo (ix2 r d)) q) (Finset.sum_congr rfl fun k _ => ?_)
  rw [lidx_out', ridx_out', val_main_v13_apply, val_main_v12_apply, Ideal.hostUnary_tanh_def]
  refine congrArg (fun s => Ideal.tanh s * W (ix2 k q)) (Finset.sum_congr rfl fun d _ => ?_)
  rw [lidx_in', ridx_in', xnew_apply]

/-- The fully kicked velocity at `(r, q)`. -/
theorem vnew_apply (X V Fo : (⟨S32768x1024, .f32⟩ : BufTy).Contents (Elt Ideal)) (U : (⟨S1024x128, .f32⟩ : BufTy).Contents (Elt Ideal)) (W : (⟨S128x1024, .f32⟩ : BufTy).Contents (Elt Ideal)) (r : Fin 32768) (q : Fin 1024) :
    val_main_v20 (F := Ideal) X V Fo U W (ix2 r q) = vnew halfDt stepDt (fun (d : Fin 1024) (k : Fin 128) => U (ix2 d k)) (fun (k : Fin 128) (j : Fin 1024) => W (ix2 k j)) (fun (d : Fin 1024) => X (ix2 r d)) (fun (d : Fin 1024) => V (ix2 r d)) (fun (d : Fin 1024) => Fo (ix2 r d)) q := by
  rw [val_main_v20_apply, val_main_v19_apply, val_main_v18_apply, val_main_cst_1_apply, val_main_v17_apply, gam_second,
    vhalf_apply]
  exact vnew_eq halfDt_nonneg halfDt_ne_top stepDt (fun (d : Fin 1024) (k : Fin 128) => U (ix2 d k)) (fun (k : Fin 128) (j : Fin 1024) => W (ix2 k j)) (fun (d : Fin 1024) => X (ix2 r d)) (fun (d : Fin 1024) => V (ix2 r d)) (fun (d : Fin 1024) => Fo (ix2 r d)) q

end Cert.ReferenceIdeal.Row

end
-- ==== Proof.RefArray.lean ====
/-
  The reference's two results as whole arrays: the new positions and the new velocities of the arguments,
  `Leapfrog.Xnew` and `Leapfrog.Vnew`. Every index is a row and a feature, and at each the reference's value is the
  row's (Proof/RefRow.lean).
-/
import proofs.«172410_j70635032150167_2_alg».proof.Proof.RefRow
import proofs.«172410_j70635032150167_2_alg».proof.Proof.LeapfrogArrays

noncomputable section

namespace Cert.ReferenceIdeal.Whole

open Cert.ReferenceIdeal Cert.ReferenceIdeal.Read Idealize.ShloMosaic Idealize.ShloMosaic.ValueIdx Cert.Leapfrog

/-- The reference's first result is the new positions. -/
theorem positions_eq (X V Fo : (⟨S32768x1024, .f32⟩ : BufTy).Contents (Elt Ideal)) (U : (⟨S1024x128, .f32⟩ : BufTy).Contents (Elt Ideal)) (W : (⟨S128x1024, .f32⟩ : BufTy).Contents (Elt Ideal)) :
    val_main_v11 (F := Ideal) X V Fo U W = Xnew X V Fo U W := by
  funext i
  obtain ⟨r, q, rfl⟩ : ∃ (r : Fin 32768) (q : Fin 1024), i = ix2 r q := ⟨i 0, i 1, eq_ix2 i⟩
  rw [Row.xnew_apply, Xnew_apply]

/-- The reference's second result is the new velocities. -/
theorem velocities_eq (X V Fo : (⟨S32768x1024, .f32⟩ : BufTy).Contents (Elt Ideal)) (U : (⟨S1024x128, .f32⟩ : BufTy).Contents (Elt Ideal)) (W : (⟨S128x1024, .f32⟩ : BufTy).Contents (Elt Ideal)) :
    val_main_v20 (F := Ideal) X V Fo U W = Vnew X V Fo U W := by
  funext i
  obtain ⟨r, q, rfl⟩ : ∃ (r : Fin 32768) (q : Fin 1024), i = ix2 r q := ⟨i 0, i 1, eq_ix2 i⟩
  rw [Row.vnew_apply, Vnew_apply]

end Cert.ReferenceIdeal.Whole

end
-- ==== Proof.lean ====
/-
  One leapfrog step, as a blocked kernel and as whole-array operations, computes the same extended reals.

  Both programs take positions `x`, velocities `v`, forces `f` ([32768, 1024]) and two factor matrices `U` ([1024, 128]),
  `W` ([128, 1024]) and return
    v½ = v + c·f − c·Γ(x, v),   x' = x + e·v½,   v' = v½ + c·f − c·Γ(x', v½),
  where Γ(x, v) = (tanh (x·U)·W) ⊙ v ⊙ v row by row, `c` is the binary32 number nearest 0.05 and `e` the one nearest
  0.1 (the same two words in both programs). The kernel works on 64 blocks of 512 rows and computes each kick as
  `v + c·f − c·Γ`; the reference works on the whole arrays and computes it as `v + c·(f − Γ)`. Rows do not interact, a
  matrix product into a zero accumulator is the plain sum over the contracted axis in both programs, a change of float
  format is the identity on extended reals, and `c` is a non-negative real, so multiplication by it distributes over
  the difference whatever extended reals `f` and `Γ` are: the finiteness of the inputs is never used.

  The kernel's two result arrays after the run are `Leapfrog.Xnew` and `Leapfrog.Vnew` of the arguments
  (Proof/KernelArray.lean over Proof/KernelRow.lean), and so are the reference's (Proof/RefArray.lean over
  Proof/RefRow.lean). The three frames are the generated ones; the idealization rewrote nothing.
-/
import proofs.«172410_j70635032150167_2_alg».proof.Defs
import proofs.«172410_j70635032150167_2_alg».proof.Proof.Gen.Kernel
import proofs.«172410_j70635032150167_2_alg».proof.Proof.Gen.Kernel.Skeleton
import proofs.«172410_j70635032150167_2_alg».proof.Proof.Gen.Kernel.Launch
import proofs.«172410_j70635032150167_2_alg».proof.Proof.Gen.Kernel.Points
import proofs.«172410_j70635032150167_2_alg».proof.Proof.Gen.Kernel.Frame
import proofs.«172410_j70635032150167_2_alg».proof.Proof.Gen.KernelIdeal
import proofs.«172410_j70635032150167_2_alg».proof.Proof.Gen.KernelIdeal.Skeleton
import proofs.«172410_j70635032150167_2_alg».proof.Proof.Gen.KernelIdeal.Launch
import proofs.«172410_j70635032150167_2_alg».proof.Proof.Gen.KernelIdeal.Points
import proofs.«172410_j70635032150167_2_alg».proof.Proof.Gen.KernelIdeal.Frame
import proofs.«172410_j70635032150167_2_alg».proof.Proof.Gen.ReferenceIdeal
import proofs.«172410_j70635032150167_2_alg».proof.Proof.Gen.Pre_finite_inputs
import proofs.«172410_j70635032150167_2_alg».proof.Proof.Gen.KernelIdeal.Value
import proofs.«172410_j70635032150167_2_alg».proof.Proof.Gen.ReferenceIdeal.Run
import proofs.«172410_j70635032150167_2_alg».proof.Proof.Gen.ReferenceIdeal.Read
import proofs.«172410_j70635032150167_2_alg».proof.Proof.KernelArray
import proofs.«172410_j70635032150167_2_alg».proof.Proof.RefArray
import Idealize.ShloMosaic.Adequacy
import Idealize.ShloMosaic.Init

noncomputable section

namespace Cert.Proof

open Idealize.ShloMosaic Idealize.ShloMosaic.TcCoe Idealize.SL.Sem Cert.Leapfrog

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the new positions and the new velocities of the arguments: the kernel's arrays by the
    blocks' cover, the reference's by its operations read at an index; the arguments agree. -/
theorem algebraic : Cert.algebraic_KernelIdeal_ReferenceIdeal := by
  intro m ρ m' ρ' _ hagree
  refine ⟨fun c => Xnew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Vnew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v11_eq, Cert.ReferenceIdeal.Whole.positions_eq,
      (hagree c).1, (hagree c).2.1, (hagree c).2.2.1, (hagree c).2.2.2.1, (hagree c).2.2.2.2]
  · rw [(h c).2.1, Cert.ReferenceIdeal.Read.val_main_v20_eq, Cert.ReferenceIdeal.Whole.velocities_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
